-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel

variable [Facts]

def fn {F : FTy → Type} [FloatOps F] (main_arg0 : FVec F S8x256x64x64 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  main_v3
-- ==== Kernel.lean ====
abbrev S8x256x64x64 : Shape := ⟨4, ![8, 256, 64, 64]⟩
abbrev S8x256x4096 : Shape := ⟨3, ![8, 256, 4096]⟩
abbrev S1x256x4096 : Shape := ⟨3, ![1, 256, 4096]⟩
abbrev S1x256x256 : Shape := ⟨3, ![1, 256, 256]⟩
abbrev S4096x256 : Shape := ⟨2, ![4096, 256]⟩
abbrev S256x4096 : Shape := ⟨2, ![256, 4096]⟩
abbrev S256x256 : Shape := ⟨2, ![256, 256]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S8x256x64x64, .f32⟩
  | .hbm, ⟨1, _⟩ => ⟨S8x256x4096, .f32⟩
  | .hbm, ⟨2, _⟩ => ⟨S8x256x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x256, .f32⟩
  | .local _ .vmem, ⟨3, _⟩ => ⟨S1x256x256, .f32⟩
  | .local _ .vmem, ⟨4, _⟩ => ⟨S4096x256, .bf16⟩
  | .local _ .vmem, ⟨5, _⟩ => ⟨S256x4096, .bf16⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8x256x64x64_S8x256x4096 : S8x256x64x64.ShapeCasts S8x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  transposes_S256x4096_p1_0_S4096x256 : S256x4096.Transposes [1, 0] S4096x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  packedbf16_S4096x256_S4096x256_0_0 : (Rect.unit (s := S4096x256) ![0, 0] S4096x256.size inb_S4096x256_S4096x256_0_0).PackedRows (EltTy.packing .bf16)
  h_S256x256 : 0 < S256x256.numel
  reduces_S256x4096_S256 : S256x4096.Reduces [1] S256
  shapeCasts_S256_S256x1 : S256.ShapeCasts S256x1
  broadcasts_S256x1_S256x4096 : S256x1.Broadcasts S256x4096
  transposes_S256x256_p1_0_S256x256 : S256x256.Transposes [1, 0] S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S256x256_S256x4096_S256x4096_1_0_0_1_n_n_wf : DotDims.WF S256x256 S256x4096 S256x4096 [1] [0] [0] [1] [] []
  dot_S256x4096_S4096x256_S256x256_1_0_0_1_n_n_wf : DotDims.WF S256x4096 S4096x256 S256x256 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x256x4096.size a
  hwx0_0 : ∀ i : grid0.Coords, EltTy.bits .f32 = 32 ∨ (Rect.block (s := S8x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x256x4096.size a
  hwx0_1 : ∀ i : grid0.Coords, EltTy.bits .f32 = 32 ∨ (Rect.block (s := S8x256x4096) S1x256x256.size (cc0_transform_1 i) (hinb0_1 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x256x64x64 : Shape := ⟨4, ![8, 256, 64, 64]⟩
abbrev S8x256x4096 : Shape := ⟨3, ![8, 256, 4096]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x256x4096, .f32⟩
  | .hbm, ⟨2, _⟩ => ⟨S8x4096x4096, .f32⟩
  | .hbm, ⟨3, _⟩ => ⟨S_, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S8x4096x1, .f32⟩
  | .hbm, ⟨9, _⟩ => ⟨S8x4096x4096, .f32⟩
  | .hbm, ⟨10, _⟩ => ⟨S8x4096x4096, .f32⟩
  | .hbm, ⟨11, _⟩ => ⟨S8x4096x4096, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S8x4096x4096, .f32⟩
  | .hbm, ⟨16, _⟩ => ⟨S8x4096x4096, .f32⟩
  | .hbm, ⟨17, _⟩ => ⟨S8x256x4096, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  shapeCasts_S8x256x64x64_S8x256x4096 : S8x256x64x64.ShapeCasts S8x256x4096
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x256x4096_S8x256x4096_S8x4096x4096_1_1_2_2_0_0_wf : DotDims.WF S8x256x4096 S8x256x4096 S8x4096x4096 [1] [1] [2] [2] [0] [0]
  dot_S8x256x4096_S8x4096x4096_S8x256x4096_2_2_1_1_0_0_wf : DotDims.WF S8x256x4096 S8x4096x4096 S8x256x4096 [2] [2] [1] [1] [0] [0]

variable [Facts₀]

def dot_S8x256x4096_S8x256x4096_S8x4096x4096_1_1_2_2_0_0 : DotDims S8x256x4096 S8x256x4096 S8x4096x4096 where
  lhsContracting := [1]
  rhsContracting := [1]
  lhsNonContracting := [2]
  rhsNonContracting := [2]
  lhsBatch := [0]
  rhsBatch := [0]
  wf := dot_S8x256x4096_S8x256x4096_S8x4096x4096_1_1_2_2_0_0_wf
def dot_S8x256x4096_S8x4096x4096_S8x256x4096_2_2_1_1_0_0 : DotDims S8x256x4096 S8x4096x4096 S8x256x4096 where
  lhsContracting := [2]
  rhsContracting := [2]
  lhsNonContracting := [1]
  rhsNonContracting := [1]
  lhsBatch := [0]
  rhsBatch := [0]
  wf := dot_S8x256x4096_S8x4096x4096_S8x256x4096_2_2_1_1_0_0_wf

class Facts : Prop extends Facts₀ where

variable [Facts]
-- ==== Proof.Spec.lean ====
/-
  The function both programs compute, stated once over the flattened input
  X[b, c, n] (8 batches, 256 channels, 4096 positions).

  For a batch b and a query position i,
    score b i j = Σ_c X[b,c,i] · X[b,c,j]                  (j a key position)
    rowMax b i  = max over j of score b i j, starting from -∞
    expo b i j  = exp (score b i j - rowMax b i)
    denom b i   = Σ_j expo b i j
    attn b i j  = expo b i j / denom b i
  and the result is
    G[b, c, i] = Σ_n X[b,c,n] · attn b i n.
  Everything is over the extended reals; -∞ is kept as the f32 word both programs print.
-/
import Idealize.ShloMosaic.PureOps.Ideal
import Idealize.ShloMosaic.Lib.ValueIdx

noncomputable section

open scoped BigOperators

namespace Cert.Attn

open Idealize.ShloMosaic Idealize.ShloMosaic.ValueIdx

/-- The flattened input's shape: batch × channel × position. -/
abbrev SX : Shape := ⟨3, ![8, 256, 4096]⟩

/-- The word both programs start their row maximum from (f32 -∞), read as an extended real. -/
def negInf : EReal := Ideal.ofBits .f32 0xFF800000#32

variable (X : SX.Idx → EReal)

/-- The inner product over the channels of positions i and j of batch b. -/
def score (b : Fin 8) (i j : Fin 4096) : EReal := ∑ c : Fin 256, X (ix3 b c i) * X (ix3 b c j)

/-- The largest score of row i, from -∞. -/
def rowMax (b : Fin 8) (i : Fin 4096) : EReal :=
  (Finset.univ : Finset (Fin 4096)).fold max negInf (fun j => score X b i j)

/-- The shifted exponential of one score. -/
def expo (b : Fin 8) (i j : Fin 4096) : EReal := Ideal.exp (score X b i j - rowMax X b i)

/-- The row's normaliser. -/
def denom (b : Fin 8) (i : Fin 4096) : EReal := ∑ j : Fin 4096, expo X b i j

/-- The softmax weight of key j for query i. -/
def attn (b : Fin 8) (i j : Fin 4096) : EReal := Ideal.div (expo X b i j) (denom X b i)

/-- The result at coordinates (b, c, i). -/
def out (b : Fin 8) (c : Fin 256) (i : Fin 4096) : EReal := ∑ n : Fin 4096, X (ix3 b c n) * attn X b i n

/-- The result array. -/
def G : SX.Idx → EReal := fun p => out X (p 0) (p 1) (p 2)

theorem G_apply (b : Fin 8) (c : Fin 256) (i : Fin 4096) : G X (ix3 b c i) = out X b c i := rfl

end Cert.Attn

end
-- ==== Proof.RefIsG.lean ====
/-
  The reference program, read one host operation at a time at the ideal values, computes the
  specification G of its own flattened input X = (the argument viewed as batch × channel × position).

  Stage by stage, at explicit coordinates (b a batch, i a query position, j a key position):
    the first contraction        is  score X b i j,
    the row maximum from -∞      is  rowMax X b i   (and taking the maximum with -∞ once more changes nothing,
                                                     since a fold of max is at least its starting value),
    the shifted exponential      is  expo X b i j,
    the row sum from 0           is  denom X b i,
    the quotient                 is  attn X b i j,
    the second contraction       is  out X b c i.
-/
import proofs.«175435_j14534169330105_2_alg».proof.Proof.Gen.ReferenceIdeal.Read
import proofs.«175435_j14534169330105_2_alg».proof.Proof.Spec
import Idealize.ShloMosaic.PureOps.Reduce
import Idealize.ShloMosaic.PureOps.Ideal.Laws
import Idealize.ShloMosaic.Lib.ValueIdx

noncomputable section

open scoped BigOperators

namespace Cert.Attn.Ref

open Idealize.ShloMosaic Idealize.ShloMosaic.ValueIdx Cert.ReferenceIdeal Cert.ReferenceIdeal.Gen Cert.ReferenceIdeal.Read

/-- The reference's flattened input, as a function of (batch, channel, position). -/
abbrev XR (x0 : (⟨S8x256x64x64, .f32⟩ : BufTy).Contents (Elt Ideal)) : SX.Idx → EReal :=
  val_main_v0 (F := Ideal) x0

section Stages

variable (x0 : (⟨S8x256x64x64, .f32⟩ : BufTy).Contents (Elt Ideal))

/-- The first contraction, over the channels, is the score. -/
theorem v1_eq_score (b : Fin 8) (i j : Fin 4096) :
    val_main_v1 (F := Ideal) x0 (ix3 b i j) = score (XR x0) b i j := by
  rw [val_main_v1_apply]
  unfold score
  refine Finset.sum_congr rfl fun c _ => ?_
  have el : lidx_main_v1 (ix3 b i j) c = ix3 b c i :=
    funext fun a => Fin.ext (by match a with | ⟨0, _⟩ => rfl | ⟨1, _⟩ => rfl | ⟨2, _⟩ => rfl)
  have er : ridx_main_v1 (ix3 b i j) c = ix3 b c j :=
    funext fun a => Fin.ext (by match a with | ⟨0, _⟩ => rfl | ⟨1, _⟩ => rfl | ⟨2, _⟩ => rfl)
  rw [el, er]

/-- The reduced index (b, i) with key coordinate k put back is (b, i, k). -/
theorem lift_ix3 (h : S8x4096x4096.Reduces [2] S8x4096) (b : Fin 8) (i : Fin 4096) (k : Fin 4096) :
    h.lift (ix2 b i) k = ix3 b i k := by
  funext c; apply Fin.ext
  match c with
  | ⟨0, _⟩ => rfl
  | ⟨1, _⟩ => rfl
  | ⟨2, _⟩ => rfl

/-- The row maximum from -∞ over the keys. -/
theorem v2_eq_rowMax (b : Fin 8) (i : Fin 4096) :
    val_main_v2 (F := Ideal) x0 (ix2 b i) = rowMax (XR x0) b i := by
  have h : S8x4096x4096.Reduces [2] S8x4096 := by decide
  unfold val_main_v2
  rw [Host.reduce_eq_fold_single FloatOps.maximumf _ _ reducesTo_S8x4096x4096_S8x4096_d2 h h_S_]
  unfold rowMax
  show (Finset.univ : Finset (Fin 4096)).fold max negInf (val_main_v1 (F := Ideal) x0 ∘ h.lift (ix2 b i)) = _
  refine congrArg (fun f => Finset.fold max negInf f (Finset.univ : Finset (Fin 4096))) ?_
  exact funext fun k : Fin 4096 =>
    (congrArg (val_main_v1 (F := Ideal) x0) (lift_ix3 h b i k)).trans (v1_eq_score x0 b i k)

/-- A fold of max is at least the value it starts from. -/
theorem negInf_le_rowMax (X : SX.Idx → EReal) (b : Fin 8) (i : Fin 4096) : negInf ≤ rowMax X b i :=
  (Finset.le_fold_max negInf).2 (Or.inl le_rfl)

/-- Taking the maximum with -∞ once more leaves the row maximum. -/
theorem v4_eq_rowMax (b : Fin 8) (i : Fin 4096) :
    val_main_v4 (F := Ideal) x0 (ix2 b i) = rowMax (XR x0) b i := by
  rw [val_main_v4_apply, val_main_v3_apply, v2_eq_rowMax]
  show max negInf (rowMax (XR x0) b i) = rowMax (XR x0) b i
  exact max_eq_right (negInf_le_rowMax _ b i)

/-- The row maximum broadcast along the keys. -/
theorem v6_eq_rowMax (b : Fin 8) (i j : Fin 4096) :
    val_main_v6 (F := Ideal) x0 (ix3 b i j) = rowMax (XR x0) b i := by
  rw [val_main_v6_apply, val_main_v5_apply]
  have e : idx_main_v5 (idx_main_v6 (ix3 b i j)) = ix2 b i :=
    funext fun a => Fin.ext (by match a with | ⟨0, _⟩ => rfl | ⟨1, _⟩ => rfl)
  rw [e, v4_eq_rowMax]

/-- The shifted exponential. -/
theorem v8_eq_expo (b : Fin 8) (i j : Fin 4096) :
    val_main_v8 (F := Ideal) x0 (ix3 b i j) = expo (XR x0) b i j := by
  rw [val_main_v8_apply, val_main_v7_apply, v1_eq_score, v6_eq_rowMax]
  rfl

/-- The row sum from 0 over the keys. -/
theorem v9_eq_denom (b : Fin 8) (i : Fin 4096) :
    val_main_v9 (F := Ideal) x0 (ix2 b i) = denom (XR x0) b i := by
  rw [val_main_v9_apply, val_main_cst_1_apply, Ideal.ofBits_def, Ideal.ofBits_zero_f32, zero_add]
  unfold denom
  refine Finset.sum_congr rfl fun k _ => ?_
  have e : idx_main_v9 (ix2 b i) k = ix3 b i k :=
    funext fun a => Fin.ext (by match a with | ⟨0, _⟩ => rfl | ⟨1, _⟩ => rfl | ⟨2, _⟩ => rfl)
  rw [e, v8_eq_expo]

/-- The normaliser broadcast along the keys. -/
theorem v11_eq_denom (b : Fin 8) (i j : Fin 4096) :
    val_main_v11 (F := Ideal) x0 (ix3 b i j) = denom (XR x0) b i := by
  rw [val_main_v11_apply, val_main_v10_apply]
  have e : idx_main_v10 (idx_main_v11 (ix3 b i j)) = ix2 b i :=
    funext fun a => Fin.ext (by match a with | ⟨0, _⟩ => rfl | ⟨1, _⟩ => rfl)
  rw [e, v9_eq_denom]

/-- The quotient is the softmax weight. -/
theorem v12_eq_attn (b : Fin 8) (i j : Fin 4096) :
    val_main_v12 (F := Ideal) x0 (ix3 b i j) = attn (XR x0) b i j := by
  rw [val_main_v12_apply, v8_eq_expo, v11_eq_denom]
  rfl

end Stages

/-- The reference's result is the specification of its flattened input. -/
theorem ref_is_G (x0 : (⟨Cert.ReferenceIdeal.S8x256x64x64, .f32⟩ : BufTy).Contents (Elt Ideal)) :
    Cert.ReferenceIdeal.Read.val_main_v13 (F := Ideal) x0 = Cert.Attn.G (Cert.ReferenceIdeal.Read.val_main_v0 (F := Ideal) x0) := by
  funext p
  obtain ⟨b, c, i, rfl⟩ : ∃ (b : Fin 8) (c : Fin 256) (i : Fin 4096), p = ix3 b c i := ⟨p 0, p 1, p 2, eq_ix3 p⟩
  rw [val_main_v13_apply]
  show _ = out (XR x0) b c i
  unfold out
  refine Finset.sum_congr rfl fun n _ => ?_
  have el : lidx_main_v13 (ix3 b c i) n = ix3 b c n :=
    funext fun a => Fin.ext (by match a with | ⟨0, _⟩ => rfl | ⟨1, _⟩ => rfl | ⟨2, _⟩ => rfl)
  have er : ridx_main_v13 (ix3 b c i) n = ix3 b i n :=
    funext fun a => Fin.ext (by match a with | ⟨0, _⟩ => rfl | ⟨1, _⟩ => rfl | ⟨2, _⟩ => rfl)
  rw [el, er, v12_eq_attn]

end Cert.Attn.Ref

end
-- ==== Proof.KernelPieces.lean ====
/-
  What one run of the body leaves behind, as pure terms of what it found.

  At a grid point whose inner coordinate is 0 the body copies the input block into the two
  carried buffers (the block itself, and its transpose) and then computes the output tile
  from those copies; at every other point it computes the output tile from the buffers as
  the point before left them. The query tile is rows q·256 … q·256+255 of the transposed
  copy, read through a rectangle at that row offset.
-/
import proofs.«175435_j14534169330105_2_alg».proof.Proof.Gen.KernelIdeal.Frame
import Idealize.ShloMosaic.Lib.Pipeline.Value

set_option maxRecDepth 16384

noncomputable section

namespace Cert.Attn.Pieces

open Cert.KernelIdeal Cert.KernelIdeal.Gen
open Idealize.ShloMosaic Idealize.ShloMosaic.TcCoe Idealize.ShloMosaic.Tactic Idealize.SL.Sem

variable {F : FTy → Type} [FloatOps F]

theorem zero2 : (![0, 0] : Fin 2 → Nat) = fun _ => 0 := by
  funext a; match a with | ⟨0, _⟩ => rfl | ⟨1, _⟩ => rfl
theorem zero3 : (![0, 0, 0] : Fin 3 → Nat) = fun _ => 0 := by
  funext a; match a with | ⟨0, _⟩ => rfl | ⟨1, _⟩ => rfl | ⟨2, _⟩ => rfl

/-- The query tile of a [4096, 256] buffer at a grid point: 256 consecutive rows from the point's row offset. -/
abbrev qtile (i : grid0.Coords) (xs : Vec F S4096x256 .bf16) : Vec F S256x256 .bf16 :=
  View.ld xs (Rect.unit (s := S4096x256) (k0_off1 i) S256x256.size (k0_off1_inb i))

/-- At a first inner point the transposed copy is the transpose of the input block. -/
theorem scratchT_first (c : Dev nD) (i : grid0.Coords) (arg2 : Memref sig .tc .vmem S1x256x4096 .f32) (harg2 : arg2.IsWhole) (arg3 : Memref sig .tc .vmem S1x256x256 .f32) (harg3 : arg3.IsWhole) (arg4 : Memref sig .tc .vmem S4096x256 .bf16) (harg4 : arg4.IsWhole) (arg5 : Memref sig .tc .vmem S256x4096 .bf16) (harg5 : arg5.IsWhole) (hc0 : cond0_0 i)
    (x0 : Vec F S1x256x4096 .f32) :
    sout0_A_0 c i arg2 harg2 arg3 harg3 arg4 harg4 arg5 harg5 hc0 x0 = k0_pay3 x0 := by
  unfold sout0_A_0
  rw [View.read_writes_eq_canon _ _ _ (scover0_A_0 c i arg2 harg2 arg3 harg3 arg4 harg4 arg5 harg5 hc0 x0)]
  unfold kernelRun0_A
  dsimp only
  sl_unfold_words
  rw [View.canon_unit_zero zero2]
  simp only [View.readAt_eq_ld, harg2.read_unread, View.ld_unit_zero (S := S1x256x4096) zero3]

/-- At a first inner point the plain copy is the input block. -/
theorem scratch_first (c : Dev nD) (i : grid0.Coords) (arg2 : Memref sig .tc .vmem S1x256x4096 .f32) (harg2 : arg2.IsWhole) (arg3 : Memref sig .tc .vmem S1x256x256 .f32) (harg3 : arg3.IsWhole) (arg4 : Memref sig .tc .vmem S4096x256 .bf16) (harg4 : arg4.IsWhole) (arg5 : Memref sig .tc .vmem S256x4096 .bf16) (harg5 : arg5.IsWhole) (hc0 : cond0_0 i)
    (x0 : Vec F S1x256x4096 .f32) :
    sout0_A_1 c i arg2 harg2 arg3 harg3 arg4 harg4 arg5 harg5 hc0 x0 = k0_pay2 x0 := by
  unfold sout0_A_1
  rw [View.read_writes_eq_canon _ _ _ (scover0_A_1 c i arg2 harg2 arg3 harg3 arg4 harg4 arg5 harg5 hc0 x0)]
  unfold kernelRun0_A
  dsimp only
  sl_unfold_words
  rw [View.canon_unit_zero zero2]
  simp only [View.readAt_eq_ld, harg2.read_unread, View.ld_unit_zero (S := S1x256x4096) zero3]

/-- At a first inner point the output tile is the body's arithmetic of the two fresh copies. -/
theorem tile_first (c : Dev nD) (i : grid0.Coords) (arg2 : Memref sig .tc .vmem S1x256x4096 .f32) (harg2 : arg2.IsWhole) (arg3 : Memref sig .tc .vmem S1x256x256 .f32) (harg3 : arg3.IsWhole) (arg4 : Memref sig .tc .vmem S4096x256 .bf16) (harg4 : arg4.IsWhole) (arg5 : Memref sig .tc .vmem S256x4096 .bf16) (harg5 : arg5.IsWhole) (hc0 : cond0_0 i)
    (x0 : Vec F S1x256x4096 .f32) :
    out0_A_1 c i arg2 harg2 arg3 harg3 arg4 harg4 arg5 harg5 hc0 x0 = k0_pay4 (qtile i (k0_pay3 x0)) (k0_pay2 x0) (k0_pay3 x0) := by
  unfold out0_A_1
  rw [View.read_writes_eq_canon _ _ _ (cover0_A_1 c i arg2 harg2 arg3 harg3 arg4 harg4 arg5 harg5 hc0 x0)]
  unfold kernelRun0_A
  dsimp only
  sl_unfold_words
  rw [View.canon_unit_zero zero3]
  simp only [View.readAt_eq_ld, harg2.read_unread, View.ld_unit_zero (S := S1x256x4096) zero3]
  rw [View.readCov_unit_zero _ zero2, View.readCov_unit_zero _ zero2,
    View.read_writes_eq_canon _ _ _ (fun y => ⟨_, List.mem_singleton_self _,
      View.mem_set_unit_zero zero2 inb_S4096x256_S4096x256_0_0 y⟩),
    View.canon_unit_zero zero2]
  rfl

/-- At a later inner point the output tile is the body's arithmetic of the carried copies. -/
theorem tile_later (c : Dev nD) (i : grid0.Coords) (arg2 : Memref sig .tc .vmem S1x256x4096 .f32) (harg2 : arg2.IsWhole) (arg3 : Memref sig .tc .vmem S1x256x256 .f32) (harg3 : arg3.IsWhole) (arg4 : Memref sig .tc .vmem S4096x256 .bf16) (harg4 : arg4.IsWhole) (arg5 : Memref sig .tc .vmem S256x4096 .bf16) (harg5 : arg5.IsWhole) (hc0 : ¬cond0_0 i)
    (x0 : Vec F S1x256x4096 .f32) (xs0 : Vec F S4096x256 .bf16) (xs1 : Vec F S256x4096 .bf16) :
    out0_B_1 c i arg2 harg2 arg3 harg3 arg4 harg4 arg5 harg5 hc0 x0 xs0 xs1 = k0_pay4 (qtile i xs0) xs1 xs0 := by
  unfold out0_B_1
  rw [View.read_writes_eq_canon _ _ _ (cover0_B_1 c i arg2 harg2 arg3 harg3 arg4 harg4 arg5 harg5 hc0 x0 xs0 xs1)]
  unfold kernelRun0_B
  dsimp only
  sl_unfold_words
  rw [View.canon_unit_zero zero3]
  simp only [View.readAt_eq_ld, harg4.read_unread, harg5.read_unread,
    View.ld_unit_zero (S := S256x4096) zero2, View.ld_unit_zero (S := S4096x256) zero2]
  rfl

end Cert.Attn.Pieces

end
-- ==== Proof.LibLayout.lean ====
/- Layout operations of "keepdims" column vectors and doubly unit-led blocks, read at an index built from explicit
   coordinates. Each lemma says which element of the operand an element of the result is. -/
import Idealize.ShloMosaic.Lib.Pipeline.Value
import Idealize.ShloMosaic.Lib.ValueIdx

noncomputable section

namespace Cert.LibLayout

open Idealize.ShloMosaic Idealize.ShloMosaic.ValueIdx

variable {α : Type}

/-- A [1, 1, a, b] block viewed as [a, b]: element (p, q) is element (0, 0, p, q). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- An [a, b] value stored as a [1, 1, a, b] block: element (0, 0, p, q) is element (p, q). -/
theorem shapeCast_ab_11ab_apply {a b : ℕ} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_four, Shape.rowMajor_val_two]
    show p.val * b + q.val = ((0 * 1 + 0) * a + p.val) * b + q.val
    simp only [Nat.zero_mul, Nat.zero_add])

/-- A vector [a] viewed as a column [a, 1]: element (p, 0) is element p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_one, Shape.rowMajor_val_two]
    show p.val = p.val * 1 + 0
    simp only [Nat.mul_one, Nat.add_zero])

/-- A column [a, 1] broadcast along its rows to [a, b]: element (p, q) is element (p, 0). -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) :=
  broadcastTo_apply x h _ _ (fun c => by
    match c with
    | ⟨0, _⟩ =>
      show p.val = if a = 1 then 0 else p.val
      by_cases ha : a = 1
      · rw [if_pos ha]; have := p.isLt; omega
      · rw [if_neg ha]
    | ⟨1, _⟩ =>
      show 0 = if (1 : ℕ) = 1 then 0 else q.val
      rw [if_pos rfl])

end Cert.LibLayout

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.KernelPay.lean ====
/-
  The kernel body's arithmetic, read at an index at the ideal values.

  The first grid step rounds the loaded block X[0, c, n] to the narrower format (the identity on extended reals) and
  stores it twice: as it stands (channels by positions), and transposed (positions by channels). Every step then forms, for
  its 256 query rows i, the scores s[i, j] = Σ_c q[i, c] · k[c, j], the row maxima m[i] = max_j s[i, j] from -∞, the
  shifted exponentials p[i, j] = exp (s[i, j] - m[i]), the normalisers l[i] = Σ_j p[i, j], the weights
  a[i, j] = p[i, j] / l[i], and the products o[i, c] = Σ_n a[i, n] · v[n, c]; it stores o transposed, under a unit
  leading axis. With q, k, v the rows, the whole and the transposed whole of one batch of X, these are the specification's
  score, rowMax, expo, denom, attn and out.
-/
import proofs.«175435_j14534169330105_2_alg».proof.Proof.Gen.KernelIdeal.Skeleton
import proofs.«175435_j14534169330105_2_alg».proof.Proof.Spec
import proofs.«175435_j14534169330105_2_alg».proof.Proof.LibLayout
import proofs.«175435_j14534169330105_2_alg».proof.Proof.LibMatmulSum
import Idealize.ShloMosaic.Lib.ValueLayout

noncomputable section

open scoped BigOperators

namespace Cert.Attn.Pay

open Cert.KernelIdeal Cert.KernelIdeal.Gen Idealize.ShloMosaic Idealize.ShloMosaic.ValueIdx Cert.Attn

/-! ## The two stored copies of the input block -/

/-- The rounded block at (c, n) is the loaded block at (0, c, n): the unit axis dropped, the change of format the identity. -/
theorem pay1_apply (x0 : Vec Ideal S1x256x4096 .f32) (c : Fin 256) (n : Fin 4096) :
    k0_pay1 (F := Ideal) x0 (ix2 c n) = x0 (ix3 (0 : Fin 1) c n) := by
  unfold k0_pay1
  exact shapeCast_1ab_ab_apply x0 _ c n

/-- The copy stored channels by positions. -/
theorem pay2_apply (x0 : Vec Ideal S1x256x4096 .f32) (c : Fin 256) (n : Fin 4096) :
    k0_pay2 (F := Ideal) x0 (ix2 c n) = x0 (ix3 (0 : Fin 1) c n) := by
  unfold k0_pay2
  rw [shapeCast_self]
  exact pay1_apply x0 c n

/-- The copy stored positions by channels: the transpose. -/
theorem pay3_apply (x0 : Vec Ideal S1x256x4096 .f32) (n : Fin 4096) (c : Fin 256) :
    k0_pay3 (F := Ideal) x0 (ix2 n c) = x0 (ix3 (0 : Fin 1) c n) := by
  unfold k0_pay3
  rw [shapeCast_self]
  exact (transpose_ix2_apply _ _ n c).trans (pay1_apply x0 c n)

/-! ## The attention body, step by step

The operands are any three vectors of the body's shapes: q (256 query rows by channels), k (channels by positions) and
v (positions by channels). -/

section Body

variable (q : FVec Ideal S256x256 .bf16) (k : FVec Ideal S256x4096 .bf16) (v : FVec Ideal S4096x256 .bf16)

/-- s[i, j] = Σ_c q[i, c] · k[c, j]. -/
def sc (i : Fin 256) (j : Fin 4096) : EReal := ∑ c : Fin 256, q (ix2 i c) * k (ix2 c j)

/-- m[i] = max_j s[i, j], from -∞. -/
def mx (i : Fin 256) : EReal := (Finset.univ : Finset (Fin 4096)).fold max negInf (fun j => sc q k i j)

/-- p[i, j] = exp (s[i, j] - m[i]). -/
def ex (i : Fin 256) (j : Fin 4096) : EReal := Ideal.exp (sc q k i j - mx q k i)

/-- l[i] = Σ_j p[i, j]. -/
def nm (i : Fin 256) : EReal := ∑ j : Fin 4096, ex q k i j

/-- a[i, j] = p[i, j] / l[i]. -/
def wt (i : Fin 256) (j : Fin 4096) : EReal := Ideal.div (ex q k i j) (nm q k i)

/-- The score matrix as the body forms it: the product of q and k into the zero splat. -/
def scV : FVec Ideal S256x4096 .f32 :=
  matmul dot_S256x256_S256x4096_S256x4096_1_0_0_1_n_n none q k (constant (F := Ideal) S256x4096 .f32 0x00000000#32)

/-- The row maxima, laid along every row's lanes. -/
def mxV : FVec Ideal S256x4096 .f32 :=
  broadcastTo S256x4096
    (shapeCast S256x1
      (multiReduction (F := Ideal) .maximumf [1] S256 (scV q k) 0xFF800000#32 reduces_S256x4096_S256 (.inl rfl) rfl)
      shapeCasts_S256_S256x1)
    broadcasts_S256x1_S256x4096

/-- The shifted exponentials. -/
def exV : FVec Ideal S256x4096 .f32 := exp (subf (scV q k) (mxV q k))

/-- The normalisers, laid along every row's lanes. -/
def nmV : FVec Ideal S256x4096 .f32 :=
  broadcastTo S256x4096
    (shapeCast S256x1
      (multiReduction (F := Ideal) .add [1] S256 (exV q k) 0x00000000#32 reduces_S256x4096_S256 (.inl rfl) rfl)
      shapeCasts_S256_S256x1)
    broadcasts_S256x1_S256x4096

/-- The weights, in the narrower format. -/
def wtV : FVec Ideal S256x4096 .bf16 := truncf .bf16 (divf (exV q k) (nmV q k)) bitsLt_bf16_f32

/-- The body's stored value is the transposed product of the weights with v, under a unit leading axis. -/
theorem pay4_eq : k0_pay4 (F := Ideal) q k v =
    shapeCast S1x256x256
      (transpose S256x256 [1, 0]
        (matmul dot_S256x4096_S4096x256_S256x256_1_0_0_1_n_n none (wtV q k) v
          (constant (F := Ideal) S256x256 .f32 0x00000000#32))
        transposes_S256x256_p1_0_S256x256)
      shapeCasts_S256x256_S1x256x256 := rfl

/-- A column vector [256] reshaped to [256, 1] and broadcast along the lanes reads its row's entry. -/
theorem column_apply (w : FVec Ideal S256 .f32) (i : Fin 256) (j : Fin 4096) :
    broadcastTo S256x4096 (shapeCast S256x1 w shapeCasts_S256_S256x1) broadcasts_S256x1_S256x4096 (ix2 i j)
      = w (ix1 i) :=
  (Cert.LibLayout.broadcastTo_a1_ab_apply _ _ i j).trans (Cert.LibLayout.shapeCast_a_a1_apply w _ i)

/-- The index over row i whose lane coordinate is j. -/
theorem lift_row (i : Fin 256) (j : Fin 4096) :
    (reduces_S256x4096_S256 : S256x4096.Reduces [1] S256).lift (ix1 i) j = ix2 i j :=
  funext fun a => Fin.ext (by
    match a with
    | ⟨0, _⟩ => rfl
    | ⟨1, _⟩ => rfl)

/-- The score matrix at (i, j). -/
theorem scV_apply (i : Fin 256) (j : Fin 4096) : scV q k (ix2 i j) = sc q k i j :=
  Idealize.ShloMosaic.MatmulSum.matmul_zero_apply dot_S256x256_S256x4096_S256x4096_1_0_0_1_n_n rfl rfl rfl rfl rfl rfl
    none q k (ix2 i j)

/-- The row maximum at (i, j): the fold of max over row i's lanes from the -∞ word. -/
theorem mxV_apply (i : Fin 256) (j : Fin 4096) : mxV q k (ix2 i j) = mx q k i := by
  refine (column_apply _ i j).trans ?_
  refine (Ideal.multiReduction_maximumf_single (scV q k) 0xFF800000#32 reduces_S256x4096_S256 (.inl rfl) rfl (ix1 i)).trans ?_
  show (Finset.univ : Finset (Fin 4096)).fold max negInf (scV q k ∘ (reduces_S256x4096_S256 : S256x4096.Reduces [1] S256).lift (ix1 i)) = _
  refine congrArg (fun f => (Finset.univ : Finset (Fin 4096)).fold max negInf f) (funext fun n => ?_)
  show scV q k ((reduces_S256x4096_S256 : S256x4096.Reduces [1] S256).lift (ix1 i) n) = _
  rw [lift_row i n]
  exact scV_apply q k i n

/-- The shifted exponential at (i, j). -/
theorem exV_apply (i : Fin 256) (j : Fin 4096) : exV q k (ix2 i j) = ex q k i j := by
  show Ideal.exp (scV q k (ix2 i j) - mxV q k (ix2 i j)) = _
  rw [scV_apply, mxV_apply]
  rfl

/-- The normaliser at (i, j): the bare sum over row i's lanes (the accumulator is the zero word). -/
theorem nmV_apply (i : Fin 256) (j : Fin 4096) : nmV q k (ix2 i j) = nm q k i := by
  refine (column_apply _ i j).trans ?_
  refine (Ideal.multiReduction_add_single (exV q k) 0x00000000#32 reduces_S256x4096_S256 (.inl rfl) rfl (ix1 i)).trans ?_
  show ∑ n : Fin 4096, exV q k ((reduces_S256x4096_S256 : S256x4096.Reduces [1] S256).lift (ix1 i) n) = _
  refine Finset.sum_congr rfl fun n _ => ?_
  rw [lift_row i n]
  exact exV_apply q k i n

/-- The weight at (i, j): the change of format is the identity. -/
theorem wtV_apply (i : Fin 256) (j : Fin 4096) : wtV q k (ix2 i j) = wt q k i j := by
  show Ideal.div (exV q k (ix2 i j)) (nmV q k (ix2 i j)) = _
  rw [exV_apply, nmV_apply]
  rfl

/-- The stored value at (0, c, i): o[i, c] = Σ_n a[i, n] · v[n, c]. -/
theorem pay4_apply (c i : Fin 256) :
    k0_pay4 (F := Ideal) q k v (ix3 (0 : Fin 1) c i) = ∑ n : Fin 4096, wt q k i n * v (ix2 n c) := by
  rw [pay4_eq]
  refine (shapeCast_ab_1ab_apply _ _ (0 : Fin 1) c i).trans ?_
  refine (transpose_ix2_apply _ _ c i).trans ?_
  refine (Idealize.ShloMosaic.MatmulSum.matmul_zero_apply dot_S256x4096_S4096x256_S256x256_1_0_0_1_n_n rfl rfl rfl rfl rfl rfl
    none (wtV q k) v (ix2 i c)).trans ?_
  refine Finset.sum_congr rfl fun n _ => ?_
  show wtV q k (ix2 i n) * v (ix2 n c) = _
  rw [wtV_apply]

end Body

/-! ## Against the specification -/

section Spec

variable (X : SX.Idx → EReal) (b : Fin 8) (row : Fin 256 → Fin 4096)
  (q : FVec Ideal S256x256 .bf16) (k : FVec Ideal S256x4096 .bf16)
  (hq : ∀ (i c : Fin 256), q (ix2 i c) = X (ix3 b c (row i)))
  (hk : ∀ (c : Fin 256) (j : Fin 4096), k (ix2 c j) = X (ix3 b c j))

include hq hk

theorem sc_eq (i : Fin 256) (j : Fin 4096) : sc q k i j = score X b (row i) j :=
  Finset.sum_congr rfl fun c _ => by rw [hq i c, hk c j]

theorem mx_eq (i : Fin 256) : mx q k i = rowMax X b (row i) :=
  congrArg (fun f => (Finset.univ : Finset (Fin 4096)).fold max negInf f) (funext fun j => sc_eq X b row q k hq hk i j)

theorem ex_eq (i : Fin 256) (j : Fin 4096) : ex q k i j = expo X b (row i) j := by
  unfold ex expo
  rw [sc_eq X b row q k hq hk, mx_eq X b row q k hq hk]

theorem nm_eq (i : Fin 256) : nm q k i = denom X b (row i) :=
  Finset.sum_congr rfl fun j _ => ex_eq X b row q k hq hk i j

theorem wt_eq (i : Fin 256) (j : Fin 4096) : wt q k i j = attn X b (row i) j := by
  unfold wt attn
  rw [ex_eq X b row q k hq hk, nm_eq X b row q k hq hk]

end Spec

/-- With q the rows row(i) of batch b (as channels), k the batch and v its transpose, the body stores the
    specification's result at (b, c, row i). -/
theorem pay4_eq_out (X : SX.Idx → EReal) (b : Fin 8) (row : Fin 256 → Fin 4096)
    (q : Vec Ideal S256x256 .bf16) (k : Vec Ideal S256x4096 .bf16) (v : Vec Ideal S4096x256 .bf16)
    (hq : ∀ (i c : Fin 256), q (ix2 i c) = X (ix3 b c (row i)))
    (hk : ∀ (c : Fin 256) (j : Fin 4096), k (ix2 c j) = X (ix3 b c j))
    (hv : ∀ (n : Fin 4096) (c : Fin 256), v (ix2 n c) = X (ix3 b c n))
    (c i : Fin 256) :
    k0_pay4 (F := Ideal) q k v (ix3 (0 : Fin 1) c i) = out X b c (row i) := by
  refine (pay4_apply q k v c i).trans ?_
  refine Finset.sum_congr rfl fun n _ => ?_
  rw [wt_eq X b row q k hq hk i n, hv n c]
  exact mul_comm _ _

end Cert.Attn.Pay

end
-- ==== Proof.KernelValue.lean ====
/-
  What the kernel's result array holds after its run, as one function of the flattened input.

  The grid has 128 points, t = 16·b + q: batch b, query tile q. The input window's block at t is
  batch b of the flattened input X; the output window's block at t is columns 256·q … 256·q+255 of
  batch b of the result. The two carried buffers are refilled whenever q = 0 and untouched
  otherwise, so after every point they hold batch b of X — one channels by positions, one
  positions by channels. Hence the tile written at t is the specification's result at
  (b, c, 256·q + i), and the 128 tiles cover the result array.
-/
import proofs.«175435_j14534169330105_2_alg».proof.Proof.Gen.KernelIdeal.Value
import proofs.«175435_j14534169330105_2_alg».proof.Proof.Spec
import proofs.«175435_j14534169330105_2_alg».proof.Proof.KernelPieces
import proofs.«175435_j14534169330105_2_alg».proof.Proof.KernelPay
import Idealize.ShloMosaic.Lib.StableHlo.Run

set_option maxRecDepth 16384

noncomputable section

open scoped BigOperators

namespace Cert.Attn.KVal

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.Attn Cert.Attn.Pieces Cert.Attn.Pay

variable (m : (ℓ : Loc nD τ sig) → Buf (Elt Ideal) ℓ) (ρ : Dev nD → PrngReg)

/-! ## The grid's arithmetic -/

theorem N128 : cfg0.N = 128 := N_0

/-- The batch of a grid point. -/
def bat (t : Fin cfg0.N) : Fin 8 := ⟨t.val / 16, by have := lt_of_lt_of_eq t.isLt N128; omega⟩

/-- The result column that row i of point t's tile is. -/
def col (t : Fin cfg0.N) (i : Fin 256) : Fin 4096 := ⟨(t.val % 16) * 256 + i.val, by have := i.isLt; omega⟩

/-- The input window's block index at a point is (batch, 0, 0). -/
theorem in_index : ∀ t : Fin cfg0.N, win0_0.index t (0 : Fin 3) = t.val / 16
    ∧ win0_0.index t (1 : Fin 3) = 0 ∧ win0_0.index t (2 : Fin 3) = 0 :=
  (by decide +kernel : ∀ t : Fin grid0.N, _)

/-- The output window's block index at a point is (batch, 0, query tile). -/
theorem out_index : ∀ t : Fin cfg0.N, win0_1.index t (0 : Fin 3) = t.val / 16
    ∧ win0_1.index t (1 : Fin 3) = 0 ∧ win0_1.index t (2 : Fin 3) = t.val % 16 :=
  (by decide +kernel : ∀ t : Fin grid0.N, _)

/-- The query tile's row offset at a point is 256 times the query tile's number. -/
theorem row_offset : ∀ t : Fin cfg0.N, k0_off1 (grid0.coords t) = ![(t.val % 16) * 256, 0] :=
  (by decide +kernel : ∀ t : Fin grid0.N, _)

/-! ## The flattened input, and its blocks -/

/-- The flattened input as the region finds it. -/
def X (c : Dev nD) : SX.Idx → EReal := V m c main_v0

/-- It is the argument reshaped. -/
theorem X_eq (c : Dev nD) :
    X m c = shapeCast S8x256x4096 (m ((c : Thread nD τ).loc main_arg0)) shapeCasts_S8x256x64x64_S8x256x4096 := by
  unfold X
  dsimp only [Gen.V, Gen.hostOps0]
  after_results
  rfl

/-- The input block at point t is batch `bat t` of the flattened input. -/
theorem iblk_apply (c : Dev nD) (t : Fin cfg0.N) (ch : Fin 256) (n : Fin 4096) :
    (iblk m c 0 t : Vec Ideal S1x256x4096 .f32) (ix3 (0 : Fin 1) ch n) = X m c (ix3 (bat t) ch n) := by
  obtain ⟨e0, e1, e2⟩ := in_index t
  unfold iblk
  rw [View.read_apply]
  show V m c main_v0 _ = V m c main_v0 _
  congr 1
  funext a
  apply Fin.ext
  match a with
  | ⟨0, _⟩ => show win0_0.index t (0 : Fin 3) * 1 + 1 * 0 = t.val / 16; omega
  | ⟨1, _⟩ => show win0_0.index t (1 : Fin 3) * 256 + 1 * ch.val = ch.val; omega
  | ⟨2, _⟩ => show win0_0.index t (2 : Fin 3) * 4096 + 1 * n.val = n.val; omega

/-- Batch b of the flattened input, positions by channels. -/
def byPos (Y : SX.Idx → EReal) (b : Fin 8) : Vec Ideal S4096x256 .bf16 := fun p => Y (ix3 b (p 1 : Fin 256) (p 0 : Fin 4096))

/-- Batch b of the flattened input, channels by positions. -/
def byChan (Y : SX.Idx → EReal) (b : Fin 8) : Vec Ideal S256x4096 .bf16 := fun p => Y (ix3 b (p 0 : Fin 256) (p 1 : Fin 4096))

theorem pay3_blk (c : Dev nD) (t : Fin cfg0.N) : k0_pay3 (F := Ideal) (iblk m c 0 t) = byPos (X m c) (bat t) := by
  funext p
  obtain ⟨n, ch, rfl⟩ : ∃ (n : Fin 4096) (ch : Fin 256), p = ix2 n ch := ⟨p 0, p 1, eq_ix2 p⟩
  exact (pay3_apply _ n ch).trans (iblk_apply m c t ch n)

theorem pay2_blk (c : Dev nD) (t : Fin cfg0.N) : k0_pay2 (F := Ideal) (iblk m c 0 t) = byChan (X m c) (bat t) := by
  funext p
  obtain ⟨ch, n, rfl⟩ : ∃ (ch : Fin 256) (n : Fin 4096), p = ix2 ch n := ⟨p 0, p 1, eq_ix2 p⟩
  exact (pay2_apply _ ch n).trans (iblk_apply m c t ch n)

/-- The query tile of a positions-by-channels buffer at point t: rows `col t i`. -/
theorem qtile_apply (t : Fin cfg0.N) (xs : Vec Ideal S4096x256 .bf16) (i ch : Fin 256) :
    qtile (grid0.coords t) xs (ix2 i ch) = xs (ix2 (col t i) ch) := by
  have e := row_offset t
  show xs _ = xs _
  congr 1
  funext a
  apply Fin.ext
  match a with
  | ⟨0, _⟩ => show k0_off1 (grid0.coords t) 0 + 1 * i.val = (t.val % 16) * 256 + i.val; rw [e]; simp
  | ⟨1, _⟩ => show k0_off1 (grid0.coords t) 1 + 1 * ch.val = ch.val; rw [e]; simp

/-! ## The carried buffers after every point -/

theorem bat_succ (n : ℕ) (h : n + 1 < cfg0.N) (h0 : ¬(n + 1) % 16 = 0) :
    bat ⟨n + 1, h⟩ = bat ⟨n, Nat.lt_of_succ_lt h⟩ := by
  apply Fin.ext; show (n + 1) / 16 = n / 16; omega

/-- After point n both carried buffers hold batch n / 16 of the flattened input. -/
theorem carried (c : Dev nD) : ∀ (n : ℕ) (h : n < cfg0.N),
    (outsAt0 m c n h).2.1 = byPos (X m c) (bat ⟨n, h⟩) ∧ (outsAt0 m c n h).2.2 = byChan (X m c) (bat ⟨n, h⟩) := by
  have first : ∀ (n : ℕ) (h : n < cfg0.N), n % 16 = 0 →
      (outsAt0 m c n h).2.1 = byPos (X m c) (bat ⟨n, h⟩) ∧ (outsAt0 m c n h).2.2 = byChan (X m c) (bat ⟨n, h⟩) := by
    intro n h h0
    rw [outsAt0_A m c ⟨n, h⟩ h0]
    dsimp only
    exact ⟨(scratchT_first _ _ _ _ _ _ _ _ _ _ _ _).trans (pay3_blk m c ⟨n, h⟩),
      (scratch_first _ _ _ _ _ _ _ _ _ _ _ _).trans (pay2_blk m c ⟨n, h⟩)⟩
  intro n
  induction n with
  | zero => intro h; exact first 0 h rfl
  | succ k ih =>
    intro h
    by_cases h0 : (k + 1) % 16 = 0
    · exact first (k + 1) h h0
    · rw [outsAt0_B m c ⟨k + 1, h⟩ h0, bat_succ k h h0]
      exact ih (Nat.lt_of_succ_lt h)

/-! ## The tile written at a point -/

/-- Row i, channel ch of the tile at point t is the result at (bat t, ch, col t i). -/
theorem tile_apply (c : Dev nD) (t : Fin cfg0.N) (ch i : Fin 256) :
    ((outsAt0 m c t.val t.isLt).1 : Vec Ideal S1x256x256 .f32) (ix3 (0 : Fin 1) ch i)
      = out (X m c) (bat t) ch (col t i) := by
  have key : ∀ (xs0 : Vec Ideal S4096x256 .bf16) (xs1 : Vec Ideal S256x4096 .bf16),
      xs0 = byPos (X m c) (bat t) → xs1 = byChan (X m c) (bat t) →
      k0_pay4 (F := Ideal) (qtile (grid0.coords t) xs0) xs1 xs0 (ix3 (0 : Fin 1) ch i) = out (X m c) (bat t) ch (col t i) := by
    intro xs0 xs1 e0 e1
    subst e0 e1
    exact pay4_eq_out (X m c) (bat t) (col t) _ _ _
      (fun i' c' => qtile_apply t _ i' c') (fun c' j => rfl) (fun n c' => rfl) ch i
  by_cases h0 : t.val % 16 = 0
  · rw [outsAt0_A m c t h0]
    dsimp only
    rw [tile_first]
    exact key _ _ (pay3_blk m c t) (pay2_blk m c t)
  · rw [outsAt0_B m c t h0]
    dsimp only
    rw [tile_later]
    have hpos : 0 < t.val := Nat.pos_of_ne_zero (fun hz => h0 (by rw [hz]))
    have hb : bat ⟨t.val - 1, Nat.lt_of_le_of_lt (Nat.sub_le _ _) t.isLt⟩ = bat t := by
      apply Fin.ext; show (t.val - 1) / 16 = t.val / 16; omega
    obtain ⟨c0, c1⟩ := carried m c (t.val - 1) (Nat.lt_of_le_of_lt (Nat.sub_le _ _) t.isLt)
    rw [hb] at c0 c1
    exact key _ _ c0 c1

/-! ## From the tiles to the array -/

/-- What point t writes back is its block of the specification. -/
theorem flushed_eq (c : Dev nD) (t : Fin cfg0.N) (hf : (cfg0.win 1).flush t = true) :
    (dats m 0 c).flushed 1 t = ((cfg0.win 1).blk t).view.read (Elt Ideal) (G (X m c)) := by
  rw [flushed1]
  obtain ⟨e0, e1, e2⟩ := out_index t
  funext y
  obtain ⟨z, ch, i, rfl⟩ : ∃ (z : Fin 1) (ch i : Fin 256), y = ix3 z ch i := ⟨y 0, y 1, y 2, eq_ix3 y⟩
  obtain rfl : z = 0 := Subsingleton.elim _ _
  show ((outsAt0 m c t.val t.isLt).1 : Vec Ideal S1x256x256 .f32) (ix3 (0 : Fin 1) ch i)
    = G (X m c) (((cfg0.win 1).blk t).view.emb (ix3 (0 : Fin 1) ch i))
  rw [tile_apply]
  show out (X m c) (bat t) ch (col t i) = G (X m c) _
  rw [← G_apply]
  congr 1
  funext a
  apply Fin.ext
  match a with
  | ⟨0, _⟩ => show t.val / 16 = win0_1.index t (0 : Fin 3) * 1 + 1 * 0; omega
  | ⟨1, _⟩ => show ch.val = win0_1.index t (1 : Fin 3) * 256 + 1 * ch.val; omega
  | ⟨2, _⟩ => show (t.val % 16) * 256 + i.val = win0_1.index t (2 : Fin 3) * 256 + 1 * i.val; omega

/-- Every index of the result array lies in the block of the point (its batch, its column's tile). -/
theorem cover (i : S8x256x4096.Idx) :
    ∃ t : Fin cfg0.N, (cfg0.win 1).flush t = true ∧ i ∈ ((cfg0.win 1).blk t).view.set := by
  have h0 : (i 0).val < 8 := (i 0).isLt
  have h1 : (i 1).val < 256 := (i 1).isLt
  have h2 : (i 2).val < 4096 := (i 2).isLt
  let t : Fin cfg0.N := ⟨(i 0).val * 16 + (i 2).val / 256, lt_of_lt_of_eq (by omega) N128.symm⟩
  obtain ⟨e0, e1, e2⟩ := out_index t
  have ht : t.val = (i 0).val * 16 + (i 2).val / 256 := rfl
  refine ⟨t, flush0_1 t, ?_⟩
  show i ∈ ((View.whole main_v1).slice (win0_1.rect t)).set
  rw [View.set_slice_whole, Rect.mem_set_unit]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 256 ≤ (i 2).val ∧ (i 2).val < win0_1.index t (2 : Fin 3) * 256 + 256; omega

/-- The result array after the run is the specification of the flattened input. -/
theorem final (c : Dev nD) : (dats m 0 c).arrAt 1 cfg0.N = G (X m c) :=
  (dats m 0 c).arrAt_eq_of_cover 1 (G (X m c)) (flushed_eq m c) cover

/-- The kernel's run: the result at the specification of the reshaped argument, the argument unchanged. -/
theorem run : θ_run defs (onTc (τ := τ) (main (F := Ideal))) ⟨m, fun _ => 0, ρ⟩ fun r => ∀ c : Dev nD,
      r.2.mem ((c : Thread nD τ).loc main_v1) = G (X m c)
      ∧ r.2.mem ((c : Thread nD τ).loc main_arg0) = m ((c : Thread nD τ).loc main_arg0) :=
  (θ_run defs _ _).mono (fun r h c => ⟨(h c).1.trans (final m c), (h c).2⟩) (run_blocks m ρ)

end Cert.Attn.KVal

end
-- ==== Proof.lean ====
/-
  Self-attention over the flattened input X[b, c, n] (8 batches, 256 channels, 4096 positions):
    out[b, c, i] = Σ_n X[b,c,n] · softmax_n (Σ_c' X[b,c',i] · X[b,c',n]).

  The kernel works tile by tile: for batch b and query tile q it forms the 256 × 4096 block of
  scores from two copies of batch b kept across the tiles of that batch (one channels by
  positions, one transposed), takes each row's maximum from -∞, exponentiates the shifted
  scores, divides by the row's sum, multiplies with the transposed copy and writes the
  256 × 256 result transposed into columns 256·q … 256·q+255. The reference computes the
  whole 4096 × 4096 score array per batch and does the same steps on it.

  Over the extended reals the two are one function (Spec.lean's `G`) of the flattened input:
    * the reference's stages, read index by index, are `G`'s definitions; its extra
      `max(-∞, row maximum)` is the row maximum, because a maximum taken from -∞ is at
      least -∞ (RefIsG.lean);
    * the kernel's tile at a point is `G` at that point's batch and columns — the body's
      arithmetic read at an index (KernelPay.lean), applied to what the carried copies hold,
      which by induction over the points is always the current batch (KernelPieces.lean,
      KernelValue.lean) — and the 128 tiles cover the result array (KernelValue.lean);
    * the only algebra used between the two is commutativity of the product under the last sum.
  No finiteness of the input is needed: both sides apply the same operations to the same
  arguments. The three frames are the generated ones (the reference's is its generated run
  with the result dropped); no operation was rewritten by the idealization, so that claim is
  trivial.
-/
import proofs.«175435_j14534169330105_2_alg».proof.Defs
import proofs.«175435_j14534169330105_2_alg».proof.Proof.Gen.Kernel
import proofs.«175435_j14534169330105_2_alg».proof.Proof.Gen.Kernel.Skeleton
import proofs.«175435_j14534169330105_2_alg».proof.Proof.Gen.Kernel.Launch
import proofs.«175435_j14534169330105_2_alg».proof.Proof.Gen.Kernel.Points
import proofs.«175435_j14534169330105_2_alg».proof.Proof.Gen.Kernel.Frame
import proofs.«175435_j14534169330105_2_alg».proof.Proof.Gen.KernelIdeal
import proofs.«175435_j14534169330105_2_alg».proof.Proof.Gen.KernelIdeal.Skeleton
import proofs.«175435_j14534169330105_2_alg».proof.Proof.Gen.KernelIdeal.Launch
import proofs.«175435_j14534169330105_2_alg».proof.Proof.Gen.KernelIdeal.Points
import proofs.«175435_j14534169330105_2_alg».proof.Proof.Gen.KernelIdeal.Frame
import proofs.«175435_j14534169330105_2_alg».proof.Proof.Gen.ReferenceIdeal
import proofs.«175435_j14534169330105_2_alg».proof.Proof.Gen.Pre_finite_inputs
import proofs.«175435_j14534169330105_2_alg».proof.Proof.Gen.KernelIdeal.Value
import proofs.«175435_j14534169330105_2_alg».proof.Proof.Gen.ReferenceIdeal.Run
import proofs.«175435_j14534169330105_2_alg».proof.Proof.Gen.ReferenceIdeal.Read
import proofs.«175435_j14534169330105_2_alg».proof.Proof.Spec
import proofs.«175435_j14534169330105_2_alg».proof.Proof.RefIsG
import proofs.«175435_j14534169330105_2_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its argument unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten when it was read at the extended reals. -/
theorem preserves : Cert.preserves_Kernel_KernelIdeal := trivial

/-- From memories that agree on the argument, the kernel's result array and the reference's result
    both end at the specification of the reshaped argument. -/
theorem algebraic : Cert.algebraic_KernelIdeal_ReferenceIdeal := by
  intro m ρ m' ρ' _ hagree
  refine ⟨fun c => Cert.Attn.G (Cert.Attn.KVal.X m c), Cert.Attn.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Attn.Ref.ref_is_G, hagree c]
  show Cert.Attn.G _ = Cert.Attn.G (Cert.Attn.KVal.X m c)
  rw [Cert.Attn.KVal.X_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
